-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_v17) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x7x7 : Shape := ⟨4, ![64, 2048, 7, 7]⟩
abbrev S64x100x7x7 : Shape := ⟨4, ![64, 100, 7, 7]⟩
abbrev S512x2048 : Shape := ⟨2, ![512, 2048]⟩
abbrev S512 : Shape := ⟨1, ![512]⟩
abbrev S_ : Shape := ⟨0, ![]⟩

class Facts : Prop where
  bcast_S_S64x2048x7x7 : S_.BroadcastsInDim S64x2048x7x7 (![] : Fin 0 → Fin S64x2048x7x7.rank)
  reducesTo_S64x2048x7x7_S_d0_1_2_3 : S64x2048x7x7.ReducesTo [0, 1, 2, 3] S_
  h_S_ : 0 < S_.numel
  bcast_S_S64x100x7x7 : S_.BroadcastsInDim S64x100x7x7 (![] : Fin 0 → Fin S64x100x7x7.rank)
  reducesTo_S64x100x7x7_S_d0_1_2_3 : S64x100x7x7.ReducesTo [0, 1, 2, 3] S_
  bcast_S_S512x2048 : S_.BroadcastsInDim S512x2048 (![] : Fin 0 → Fin S512x2048.rank)
  reducesTo_S512x2048_S_d0_1 : S512x2048.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512x2048 .f32) (main_arg5 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x2048 .f32 := Host.absf main_arg4
  let main_cst_6 : FVec F S_ .f32 := constant S_ .f32 0x7F800000#32
  let main_v20 : FVec F S512x2048 .f32 := broadcastInDim S512x2048 ![] bcast_S_S512x2048 main_cst_6
  let main_v21 : IVec S512x2048 1 := cmpf .olt main_v19 main_v20
  let main_c_7 : IVec S_ 1 := constantI S_ 1 1#1
  let main_v22 : IVec S_ 1 := (fun x v => Host.reduce IntOp.andi x v reducesTo_S512x2048_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S64x2048x7x7 .f32) (main_arg1 : FVec F S64x100x7x7 .f32) (main_arg2 : FVec F S512x2048 .f32) (main_arg3 : FVec F S512 .f32) (main_arg4 : FVec F S512x2048 .f32) (main_arg5 : FVec F S512 .f32) : IVec S_ 1 :=
  let main_v0 : FVec F S64x2048x7x7 .f32 := Host.absf main_arg0
  let main_cst : FVec F S_ .f32 := constant S_ .f32 0x7F800000#32
  let main_v1 : FVec F S64x2048x7x7 .f32 := broadcastInDim S64x2048x7x7 ![] bcast_S_S64x2048x7x7 main_cst
  let main_v2 : IVec S64x2048x7x7 1 := cmpf .olt main_v0 main_v1
  let main_c : IVec S_ 1 := constantI S_ 1 1#1
  let main_v3 : IVec S_ 1 := (fun x v => Host.reduce IntOp.andi x v reducesTo_S64x2048x7x7_S_d0_1_2_3 h_S_) main_v2 main_c
  let main_v4 : FVec F S64x100x7x7 .f32 := Host.absf main_arg1
  let main_cst_0 : FVec F S_ .f32 := constant S_ .f32 0x7F800000#32
  let main_v5 : FVec F S64x100x7x7 .f32 := broadcastInDim S64x100x7x7 ![] bcast_S_S64x100x7x7 main_cst_0
  let main_v6 : IVec S64x100x7x7 1 := cmpf .olt main_v4 main_v5
  let main_c_1 : IVec S_ 1 := constantI S_ 1 1#1
  let main_v7 : IVec S_ 1 := (fun x v => Host.reduce IntOp.andi x v reducesTo_S64x100x7x7_S_d0_1_2_3 h_S_) main_v6 main_c_1
  let main_v8 : IVec S_ 1 := andi main_v3 main_v7
  let main_v9 : FVec F S512x2048 .f32 := Host.absf main_arg2
  let main_cst_2 : FVec F S_ .f32 := constant S_ .f32 0x7F800000#32
  let main_v10 : FVec F S512x2048 .f32 := broadcastInDim S512x2048 ![] bcast_S_S512x2048 main_cst_2
  let main_v11 : IVec S512x2048 1 := cmpf .olt main_v9 main_v10
  let main_c_3 : IVec S_ 1 := constantI S_ 1 1#1
  let main_v12 : IVec S_ 1 := (fun x v => Host.reduce IntOp.andi x v reducesTo_S512x2048_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Kernel.lean ====
abbrev S64x2048x7x7 : Shape := ⟨4, ![64, 2048, 7, 7]⟩
abbrev S64x100x7x7 : Shape := ⟨4, ![64, 100, 7, 7]⟩
abbrev S512x2048 : Shape := ⟨2, ![512, 2048]⟩
abbrev S512 : Shape := ⟨1, ![512]⟩
abbrev S64x100x2048 : Shape := ⟨3, ![64, 100, 2048]⟩
abbrev S64x512 : Shape := ⟨2, ![64, 512]⟩
abbrev S8x2048x7x7 : Shape := ⟨4, ![8, 2048, 7, 7]⟩
abbrev S8x100x7x7 : Shape := ⟨4, ![8, 100, 7, 7]⟩
abbrev S8x100x2048 : Shape := ⟨3, ![8, 100, 2048]⟩
abbrev S8x512 : Shape := ⟨2, ![8, 512]⟩
abbrev S8x2048x7 : Shape := ⟨3, ![8, 2048, 7]⟩
abbrev S8x100x7 : Shape := ⟨3, ![8, 100, 7]⟩
abbrev S8x2048 : Shape := ⟨2, ![8, 2048]⟩
abbrev S2048x512 : Shape := ⟨2, ![2048, 512]⟩
abbrev S1x512 : Shape := ⟨2, ![1, 512]⟩

abbrev nBuf : Space → Nat
  | .hbm => 9
  | .vmem => 14
  | .smem => 0
  | _ => 0

abbrev bufTy : (tb : Table) → Fin (tcTables nBuf tb) → BufTy
  | .hbm, ⟨0, _⟩ => ⟨S64x2048x7x7, .f32⟩
  | .hbm, ⟨1, _⟩ => ⟨S64x100x7x7, .f32⟩
  | .hbm, ⟨2, _⟩ => ⟨S512x2048, .f32⟩
  | .hbm, ⟨3, _⟩ => ⟨S512, .f32⟩
  | .hbm, ⟨4, _⟩ => ⟨S512x2048, .f32⟩
  | .hbm, ⟨5, _⟩ => ⟨S512, .f32⟩
  | .hbm, ⟨6, _⟩ => ⟨S64x100x2048, .f32⟩
  | .hbm, ⟨7, _⟩ => ⟨S64x512, .f32⟩
  | .hbm, ⟨8, _⟩ => ⟨S64x512, .f32⟩
  | .local _ .vmem, ⟨0, _⟩ => ⟨S8x2048x7x7, .f32⟩
  | .local _ .vmem, ⟨1, _⟩ => ⟨S8x2048x7x7, .f32⟩
  | .local _ .vmem, ⟨2, _⟩ => ⟨S8x100x7x7, .f32⟩
  | .local _ .vmem, ⟨3, _⟩ => ⟨S8x100x7x7, .f32⟩
  | .local _ .vmem, ⟨4, _⟩ => ⟨S512x2048, .f32⟩
  | .local _ .vmem, ⟨5, _⟩ => ⟨S512, .f32⟩
  | .local _ .vmem, ⟨6, _⟩ => ⟨S512x2048, .f32⟩
  | .local _ .vmem, ⟨7, _⟩ => ⟨S512, .f32⟩
  | .local _ .vmem, ⟨8, _⟩ => ⟨S8x100x2048, .f32⟩
  | .local _ .vmem, ⟨9, _⟩ => ⟨S8x100x2048, .f32⟩
  | .local _ .vmem, ⟨10, _⟩ => ⟨S8x512, .f32⟩
  | .local _ .vmem, ⟨11, _⟩ => ⟨S8x512, .f32⟩
  | .local _ .vmem, ⟨12, _⟩ => ⟨S8x512, .f32⟩
  | .local _ .vmem, ⟨13, _⟩ => ⟨S8x512, .f32⟩
  | _, _ => ⟨S64x2048x7x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x2048x7x7 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x100x7x7 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x100x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  inb_S8x2048x7x7_S8x2048x7x7_0_0_0_0 : ∀ a, (![0, 0, 0, 0] : Fin 4 → Nat) a + S8x2048x7x7.size a ≤ S8x2048x7x7.size a
  h_S8x2048x7x7 : 0 < S8x2048x7x7.numel
  inb_S8x100x7x7_S8x100x7x7_0_0_0_0 : ∀ a, (![0, 0, 0, 0] : Fin 4 → Nat) a + S8x100x7x7.size a ≤ S8x100x7x7.size a
  h_S8x100x7x7 : 0 < S8x100x7x7.numel
  reduces_S8x2048x7x7_S8x2048x7 : S8x2048x7x7.Reduces [3] S8x2048x7
  reduces_S8x100x7x7_S8x100x7 : S8x100x7x7.Reduces [2] S8x100x7
  inb_S8x100x2048_S8x100x2048_0_0_0 : ∀ a, (![0, 0, 0] : Fin 3 → Nat) a + S8x100x2048.size a ≤ S8x100x2048.size a
  h_S8x100x2048 : 0 < S8x100x2048.numel
  reduces_S8x100x2048_S8x2048 : S8x100x2048.Reduces [1] S8x2048
  inb_S512x2048_S512x2048_0_0 : ∀ a, (![0, 0] : Fin 2 → Nat) a + S512x2048.size a ≤ S512x2048.size a
  h_S512x2048 : 0 < S512x2048.numel
  transposes_S512x2048_p1_0_S2048x512 : S512x2048.Transposes [1, 0] S2048x512
  inb_S512_S512_0 : ∀ a, (![0] : Fin 1 → Nat) a + S512.size a ≤ S512.size a
  h_S512 : 0 < S512.numel
  shapeCasts_S512_S1x512 : S512.ShapeCasts S1x512
  broadcasts_S1x512_S8x512 : S1x512.Broadcasts S8x512
  inb_S8x512_S8x512_0_0 : ∀ a, (![0, 0] : Fin 2 → Nat) a + S8x512.size a ≤ S8x512.size a
  h_S8x512 : 0 < S8x512.numel
  dot_S8x100x7_S8x2048x7_S8x100x2048_2_2_1_1_0_0_wf : DotDims.WF S8x100x7 S8x2048x7 S8x100x2048 [2] [2] [1] [1] [0] [0]
  dot_S8x2048_S2048x512_S8x512_1_0_0_1_n_n_wf : DotDims.WF S8x2048 S2048x512 S8x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x2048x7x7.size a ≤ S64x2048x7x7.size a
  hwx0_0 : ∀ i : grid0.Coords, EltTy.bits .f32 = 32 ∨ (Rect.block (s := S64x2048x7x7) S8x2048x7x7.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x100x7x7.size a ≤ S64x100x7x7.size a
  hwx0_1 : ∀ i : grid0.Coords, EltTy.bits .f32 = 32 ∨ (Rect.block (s := S64x100x7x7) S8x100x7x7.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S512x2048.size a
  hwx0_2 : ∀ i : grid0.Coords, EltTy.bits .f32 = 32 ∨ (Rect.block (s := S512x2048) S512x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S512x2048.size a
  hwx0_4 : ∀ i : grid0.Coords, EltTy.bits .f32 = 32 ∨ (Rect.block (s := S512x2048) S512x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x100x2048.size a ≤ S64x100x2048.size a
  hwx0_6 : ∀ i : grid0.Coords, EltTy.bits .f32 = 32 ∨ (Rect.block (s := S64x100x2048) S8x100x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x512.size a ≤ S64x512.size a
  hwx0_7 : ∀ i : grid0.Coords, EltTy.bits .f32 = 32 ∨ (Rect.block (s := S64x512) S8x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8x512.size a ≤ S64x512.size a
  hwx0_8 : ∀ i : grid0.Coords, EltTy.bits .f32 = 32 ∨ (Rect.block (s := S64x512) S8x512.size (cc0_transform_8 i) (hinb0_8 i)).WholeWords (EltTy.packing .f32)

variable [Facts₀]

def dot_S8x100x7_S8x2048x7_S8x100x2048_2_2_1_1_0_0 : DotDims S8x100x7 S8x2048x7 S8x100x2048 where
  lhsContracting := [2]
  rhsContracting := [2]
  lhsNonContracting := [1]
  rhsNonContracting := [1]
  lhsBatch := [0]
  rhsBatch := [0]
  wf := dot_S8x100x7_S8x2048x7_S8x100x2048_2_2_1_1_0_0_wf
def dot_S8x2048_S2048x512_S8x512_1_0_0_1_n_n : DotDims S8x2048 S2048x512 S8x512 where
  lhsContracting := [1]
  rhsContracting := [0]
  lhsNonContracting := [0]
  rhsNonContracting := [1]
  lhsBatch := []
  rhsBatch := []
  wf := dot_S8x2048_S2048x512_S8x512_1_0_0_1_n_n_wf

abbrev win0_0 : Pipeline.Window sig grid0 :=
  Pipeline.Window.ofSpec (Memref.whole main_arg0) S8x2048x7x7.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x100x7x7.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_0) S8x100x2048.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_1) S8x512.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_2) S8x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S64x2048x7x7 : Shape := ⟨4, ![64, 2048, 7, 7]⟩
abbrev S64x100x7x7 : Shape := ⟨4, ![64, 100, 7, 7]⟩
abbrev S512x2048 : Shape := ⟨2, ![512, 2048]⟩
abbrev S512 : Shape := ⟨1, ![512]⟩
abbrev S_ : Shape := ⟨0, ![]⟩
abbrev S64x2048x7 : Shape := ⟨3, ![64, 2048, 7]⟩
abbrev S64x100x7 : Shape := ⟨3, ![64, 100, 7]⟩
abbrev S64x100x2048 : Shape := ⟨3, ![64, 100, 2048]⟩
abbrev S64x2048 : Shape := ⟨2, ![64, 2048]⟩
abbrev S2048x512 : Shape := ⟨2, ![2048, 512]⟩
abbrev S64x512 : Shape := ⟨2, ![64, 512]⟩
abbrev S1x512 : Shape := ⟨2, ![1, 512]⟩

abbrev nBuf : Space → Nat
  | .hbm => 29
  | .vmem => 0
  | .smem => 0
  | _ => 0

abbrev bufTy : (tb : Table) → Fin (tcTables nBuf tb) → BufTy
  | .hbm, ⟨0, _⟩ => ⟨S64x2048x7x7, .f32⟩
  | .hbm, ⟨1, _⟩ => ⟨S64x100x7x7, .f32⟩
  | .hbm, ⟨2, _⟩ => ⟨S512x2048, .f32⟩
  | .hbm, ⟨3, _⟩ => ⟨S512, .f32⟩
  | .hbm, ⟨4, _⟩ => ⟨S512x2048, .f32⟩
  | .hbm, ⟨5, _⟩ => ⟨S512, .f32⟩
  | .hbm, ⟨6, _⟩ => ⟨S_, .f32⟩
  | .hbm, ⟨7, _⟩ => ⟨S64x2048x7, .f32⟩
  | .hbm, ⟨8, _⟩ => ⟨S_, .f32⟩
  | .hbm, ⟨9, _⟩ => ⟨S64x100x7, .f32⟩
  | .hbm, ⟨10, _⟩ => ⟨S64x100x2048, .f32⟩
  | .hbm, ⟨11, _⟩ => ⟨S_, .f32⟩
  | .hbm, ⟨12, _⟩ => ⟨S64x100x2048, .f32⟩
  | .hbm, ⟨13, _⟩ => ⟨S64x100x2048, .f32⟩
  | .hbm, ⟨14, _⟩ => ⟨S_, .f32⟩
  | .hbm, ⟨15, _⟩ => ⟨S64x2048, .f32⟩
  | .hbm, ⟨16, _⟩ => ⟨S_, .f32⟩
  | .hbm, ⟨17, _⟩ => ⟨S64x2048, .f32⟩
  | .hbm, ⟨18, _⟩ => ⟨S64x2048, .f32⟩
  | .hbm, ⟨19, _⟩ => ⟨S2048x512, .f32⟩
  | .hbm, ⟨20, _⟩ => ⟨S64x512, .f32⟩
  | .hbm, ⟨21, _⟩ => ⟨S1x512, .f32⟩
  | .hbm, ⟨22, _⟩ => ⟨S64x512, .f32⟩
  | .hbm, ⟨23, _⟩ => ⟨S64x512, .f32⟩
  | .hbm, ⟨24, _⟩ => ⟨S2048x512, .f32⟩
  | .hbm, ⟨25, _⟩ => ⟨S64x512, .f32⟩
  | .hbm, ⟨26, _⟩ => ⟨S1x512, .f32⟩
  | .hbm, ⟨27, _⟩ => ⟨S64x512, .f32⟩
  | .hbm, ⟨28, _⟩ => ⟨S64x512, .f32⟩
  | _, _ => ⟨S64x2048x7x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_cst_3 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩

abbrev nD : Nat := 1
abbrev τ : Topo := Topo.v7x

variable {F : FTy → Type} [FloatOps F]

class Facts₀ : Prop where
  reducesTo_S64x2048x7x7_S64x2048x7_d3 : S64x2048x7x7.ReducesTo [3] S64x2048x7
  h_S_ : 0 < S_.numel
  reducesTo_S64x100x7x7_S64x100x7_d2 : S64x100x7x7.ReducesTo [2] S64x100x7
  bcast_S_S64x100x2048 : S_.BroadcastsInDim S64x100x2048 (![] : Fin 0 → Fin S64x100x2048.rank)
  reducesTo_S64x100x2048_S64x2048_d1 : S64x100x2048.ReducesTo [1] S64x2048
  bcast_S_S64x2048 : S_.BroadcastsInDim S64x2048 (![] : Fin 0 → Fin S64x2048.rank)
  transposes_S512x2048_S2048x512_1_0 : S512x2048.Transposes [1, 0] S2048x512
  bcast_S512_S1x512_1 : S512.BroadcastsInDim S1x512 (![1] : Fin 1 → Fin S1x512.rank)
  bcast_S1x512_S64x512_0_1 : S1x512.BroadcastsInDim S64x512 (![0, 1] : Fin 2 → Fin S64x512.rank)
  dot_S64x100x7_S64x2048x7_S64x100x2048_2_2_1_1_0_0_wf : DotDims.WF S64x100x7 S64x2048x7 S64x100x2048 [2] [2] [1] [1] [0] [0]
  dot_S64x2048_S2048x512_S64x512_1_0_0_1_n_n_wf : DotDims.WF S64x2048 S2048x512 S64x512 [1] [0] [0] [1] [] []

variable [Facts₀]

def dot_S64x100x7_S64x2048x7_S64x100x2048_2_2_1_1_0_0 : DotDims S64x100x7 S64x2048x7 S64x100x2048 where
  lhsContracting := [2]
  rhsContracting := [2]
  lhsNonContracting := [1]
  rhsNonContracting := [1]
  lhsBatch := [0]
  rhsBatch := [0]
  wf := dot_S64x100x7_S64x2048x7_S64x100x2048_2_2_1_1_0_0_wf
def dot_S64x2048_S2048x512_S64x512_1_0_0_1_n_n : DotDims S64x2048 S2048x512 S64x512 where
  lhsContracting := [1]
  rhsContracting := [0]
  lhsNonContracting := [0]
  rhsNonContracting := [1]
  lhsBatch := []
  rhsBatch := []
  wf := dot_S64x2048_S2048x512_S64x512_1_0_0_1_n_n_wf

class Facts : Prop extends Facts₀ where

variable [Facts]
-- ==== Proof.PoolSpec.lean ====
/-
  The function both programs compute, one batch row at a time.

  For one batch row, with features `F c k j` (2048 channels over a 7×7 grid) and masks `M r i k` (100 regions over
  the same grid), a region's pooled feature is

      pooled r c = (∑ k, (∑ i, M r i k) · (∑ j, F c k j)) / 49,

  the mean over the regions is `meanPooled c = (∑ r, pooled r c) / 100`, and each of the two hidden-state
  initialisers is the affine map `initState h = (∑ c, meanPooled c · W h c) + bias h`. Everything is over the extended
  reals; the divisors are the f32 words for 49 and 100 that both programs write, and no law beyond `0 + x = x` is
  used to meet this form, so nothing here needs finiteness.

  The whole arrays are these row functions applied to each batch row (`pooledArr`, `hiddenArr`), for any batch
  extent `B`: a block of eight consecutive batch rows of the arrays is the same functions of the same eight rows of
  the inputs.
-/
import Idealize.ShloMosaic.PureOps.Ideal
import Idealize.ShloMosaic.PureOps.Ideal.Laws
import Idealize.ShloMosaic.Lib.ValueIdx

noncomputable section

namespace Cert.Pooling

open Idealize.ShloMosaic Idealize.ShloMosaic.ValueIdx

/-- A region's pooled feature on one batch row. -/
def pooled (Fm : Fin 2048 → Fin 7 → Fin 7 → EReal) (Mm : Fin 100 → Fin 7 → Fin 7 → EReal) (r : Fin 100) (c : Fin 2048) : EReal :=
  Ideal.div (∑ k : Fin 7, (∑ i : Fin 7, Mm r i k) * (∑ j : Fin 7, Fm c k j)) (Ideal.ofBits .f32 0x42440000#32)

/-- The mean of the pooled features over the hundred regions. -/
def meanPooled (Fm : Fin 2048 → Fin 7 → Fin 7 → EReal) (Mm : Fin 100 → Fin 7 → Fin 7 → EReal) (c : Fin 2048) : EReal :=
  Ideal.div (∑ r : Fin 100, pooled Fm Mm r c) (Ideal.ofBits .f32 0x42C80000#32)

/-- An affine map of the mean: a hidden-state initialiser. -/
def initState (Fm : Fin 2048 → Fin 7 → Fin 7 → EReal) (Mm : Fin 100 → Fin 7 → Fin 7 → EReal)
    (W : Fin 512 → Fin 2048 → EReal) (bias : Fin 512 → EReal) (h : Fin 512) : EReal :=
  (∑ c : Fin 2048, meanPooled Fm Mm c * W h c) + bias h

/-- Batch row `b` of a feature array. -/
def featRow {B : Nat} (x : (⟨4, ![B, 2048, 7, 7]⟩ : Shape).Idx → EReal) (b : Fin B) : Fin 2048 → Fin 7 → Fin 7 → EReal :=
  fun c k j => x (ix4 b c k j)

/-- Batch row `b` of a mask array. -/
def maskRow {B : Nat} (x : (⟨4, ![B, 100, 7, 7]⟩ : Shape).Idx → EReal) (b : Fin B) : Fin 100 → Fin 7 → Fin 7 → EReal :=
  fun r i k => x (ix4 b r i k)

/-- A weight matrix by its two coordinates. -/
def weights (w : (⟨2, ![512, 2048]⟩ : Shape).Idx → EReal) : Fin 512 → Fin 2048 → EReal := fun h c => w (ix2 h c)

/-- A bias vector by its coordinate. -/
def biases (v : (⟨1, ![512]⟩ : Shape).Idx → EReal) : Fin 512 → EReal := fun h => v (ix1 h)

/-- The pooled features of every batch row. -/
def pooledArr {B : Nat} (x0 : (⟨4, ![B, 2048, 7, 7]⟩ : Shape).Idx → EReal) (x1 : (⟨4, ![B, 100, 7, 7]⟩ : Shape).Idx → EReal) :
    (⟨3, ![B, 100, 2048]⟩ : Shape).Idx → EReal :=
  fun i => pooled (featRow x0 (i 0)) (maskRow x1 (i 0)) (i 1) (i 2)

/-- A hidden-state initialiser of every batch row. -/
def hiddenArr {B : Nat} (x0 : (⟨4, ![B, 2048, 7, 7]⟩ : Shape).Idx → EReal) (x1 : (⟨4, ![B, 100, 7, 7]⟩ : Shape).Idx → EReal)
    (w : (⟨2, ![512, 2048]⟩ : Shape).Idx → EReal) (v : (⟨1, ![512]⟩ : Shape).Idx → EReal) :
    (⟨2, ![B, 512]⟩ : Shape).Idx → EReal :=
  fun i => initState (featRow x0 (i 0)) (maskRow x1 (i 0)) (weights w) (biases v) (i 1)

theorem pooledArr_apply {B : Nat} (x0 : (⟨4, ![B, 2048, 7, 7]⟩ : Shape).Idx → EReal) (x1 : (⟨4, ![B, 100, 7, 7]⟩ : Shape).Idx → EReal)
    (b : Fin B) (r : Fin 100) (c : Fin 2048) :
    pooledArr x0 x1 (ix3 b r c) = pooled (featRow x0 b) (maskRow x1 b) r c := rfl

theorem hiddenArr_apply {B : Nat} (x0 : (⟨4, ![B, 2048, 7, 7]⟩ : Shape).Idx → EReal) (x1 : (⟨4, ![B, 100, 7, 7]⟩ : Shape).Idx → EReal)
    (w : (⟨2, ![512, 2048]⟩ : Shape).Idx → EReal) (v : (⟨1, ![512]⟩ : Shape).Idx → EReal) (b : Fin B) (h : Fin 512) :
    hiddenArr x0 x1 w v (ix2 b h) = initState (featRow x0 b) (maskRow x1 b) (weights w) (biases v) h := rfl

/-- The zero word both programs start their sums from is the number zero. -/
theorem zero_word_add (x : EReal) : Ideal.ofBits .f32 0x00000000#32 + x = x := by
  rw [Ideal.ofBits_zero_f32, zero_add]

end Cert.Pooling

end
-- ==== Proof.BodyRows.lean ====
/-
  The kernel body's three stored values, read at an index.

  On a block of eight batch rows the body sums the features over the last grid axis and the masks over the first,
  multiplies the two per batch row over the shared axis, divides by 49 and stores; sums that over the regions,
  divides by 100, multiplies by the transposed weights and adds the bias row, twice. Read at an index each stored
  value is the row function of `PoolSpec` of the block's batch row `p`: the body never mixes batch rows.
-/
import proofs.«138623_j1709396983953_1_alg».proof.Proof.Gen.KernelIdeal.Skeleton
import proofs.«138623_j1709396983953_1_alg».proof.Proof.PoolSpec
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Cert.Pooling
open Idealize.ShloMosaic Idealize.ShloMosaic.ValueIdx

/-! ## The two sums over a grid axis -/

/-- The features summed over the last grid axis. -/
theorem featSum_apply (v0 : Vec Ideal S8x2048x7x7 .f32) (p : Fin 8) (c : Fin 2048) (k : Fin 7) :
    multiReduction (F := Ideal) .add [3] S8x2048x7 v0 0x00000000#32 reduces_S8x2048x7x7_S8x2048x7 (.inl rfl) rfl (ix3 p c k)
      = ∑ j : Fin 7, v0 (ix4 p c k j) := by
  refine (Ideal.multiReduction_add_single v0 _ reduces_S8x2048x7x7_S8x2048x7 _ _ (ix3 p c k)).trans ?_
  refine Finset.sum_congr rfl fun j _ => congrArg v0 (funext fun a => Fin.ext ?_)
  match a with
  | ⟨0, _⟩ => rfl
  | ⟨1, _⟩ => rfl
  | ⟨2, _⟩ => rfl
  | ⟨3, _⟩ => rfl

/-- The masks summed over the first grid axis. -/
theorem maskSum_apply (v1 : Vec Ideal S8x100x7x7 .f32) (p : Fin 8) (r : Fin 100) (k : Fin 7) :
    multiReduction (F := Ideal) .add [2] S8x100x7 v1 0x00000000#32 reduces_S8x100x7x7_S8x100x7 (.inl rfl) rfl (ix3 p r k)
      = ∑ i : Fin 7, v1 (ix4 p r i k) := by
  refine (Ideal.multiReduction_add_single v1 _ reduces_S8x100x7x7_S8x100x7 _ _ (ix3 p r k)).trans ?_
  refine Finset.sum_congr rfl fun i _ => congrArg v1 (funext fun a => Fin.ext ?_)
  match a with
  | ⟨0, _⟩ => rfl
  | ⟨1, _⟩ => rfl
  | ⟨2, _⟩ => rfl
  | ⟨3, _⟩ => rfl

/-! ## The per-row product over the shared grid axis -/

theorem lhs1_0 (i : S8x100x2048.Idx) (q : dot_S8x100x7_S8x2048x7_S8x100x2048_2_2_1_1_0_0.contr.Idx) :
    (dot_S8x100x7_S8x2048x7_S8x100x2048_2_2_1_1_0_0.lhsIdx i q 0).val = (i 0).val := by
  unfold DotDims.lhsIdx
  rw [dif_pos (show (0 : Fin S8x100x7.rank) ∈ dot_S8x100x7_S8x2048x7_S8x100x2048_2_2_1_1_0_0.lhsBatch by decide)]
  rfl
theorem lhs1_1 (i : S8x100x2048.Idx) (q : dot_S8x100x7_S8x2048x7_S8x100x2048_2_2_1_1_0_0.contr.Idx) :
    (dot_S8x100x7_S8x2048x7_S8x100x2048_2_2_1_1_0_0.lhsIdx i q 1).val = (i 1).val := by
  unfold DotDims.lhsIdx
  rw [dif_neg (show ¬(1 : Fin S8x100x7.rank) ∈ dot_S8x100x7_S8x2048x7_S8x100x2048_2_2_1_1_0_0.lhsBatch by decide), dif_pos (show (1 : Fin S8x100x7.rank) ∈ dot_S8x100x7_S8x2048x7_S8x100x2048_2_2_1_1_0_0.lhsNonContracting by decide)]
  rfl
theorem lhs1_2 (i : S8x100x2048.Idx) (q : dot_S8x100x7_S8x2048x7_S8x100x2048_2_2_1_1_0_0.contr.Idx) :
    (dot_S8x100x7_S8x2048x7_S8x100x2048_2_2_1_1_0_0.lhsIdx i q 2).val = (q ⟨0, by decide⟩).val :=
  dot_S8x100x7_S8x2048x7_S8x100x2048_2_2_1_1_0_0.lhsIdx_val_of_single rfl i q
theorem rhs1_0 (i : S8x100x2048.Idx) (q : dot_S8x100x7_S8x2048x7_S8x100x2048_2_2_1_1_0_0.contr.Idx) :
    (dot_S8x100x7_S8x2048x7_S8x100x2048_2_2_1_1_0_0.rhsIdx i q 0).val = (i 0).val := by
  unfold DotDims.rhsIdx
  rw [dif_pos (show (0 : Fin S8x2048x7.rank) ∈ dot_S8x100x7_S8x2048x7_S8x100x2048_2_2_1_1_0_0.rhsBatch by decide)]
  rfl
theorem rhs1_1 (i : S8x100x2048.Idx) (q : dot_S8x100x7_S8x2048x7_S8x100x2048_2_2_1_1_0_0.contr.Idx) :
    (dot_S8x100x7_S8x2048x7_S8x100x2048_2_2_1_1_0_0.rhsIdx i q 1).val = (i 2).val := by
  unfold DotDims.rhsIdx
  rw [dif_neg (show ¬(1 : Fin S8x2048x7.rank) ∈ dot_S8x100x7_S8x2048x7_S8x100x2048_2_2_1_1_0_0.rhsBatch by decide), dif_pos (show (1 : Fin S8x2048x7.rank) ∈ dot_S8x100x7_S8x2048x7_S8x100x2048_2_2_1_1_0_0.rhsNonContracting by decide)]
  rfl
theorem rhs1_2 (i : S8x100x2048.Idx) (q : dot_S8x100x7_S8x2048x7_S8x100x2048_2_2_1_1_0_0.contr.Idx) :
    (dot_S8x100x7_S8x2048x7_S8x100x2048_2_2_1_1_0_0.rhsIdx i q 2).val = (q ⟨0, by decide⟩).val :=
  dot_S8x100x7_S8x2048x7_S8x100x2048_2_2_1_1_0_0.rhsIdx_val_of_single rfl i q

/-- The body's first product, into the zero accumulator, at (p, r, c): the sum over the shared grid axis `k` of the
    left operand at (p, r, k) times the right at (p, c, k). -/
theorem rowProduct_apply (l : FVec Ideal S8x100x7 .f32) (rr : FVec Ideal S8x2048x7 .f32) (p : Fin 8) (r : Fin 100) (c : Fin 2048) :
    matmul (F := Ideal) dot_S8x100x7_S8x2048x7_S8x100x2048_2_2_1_1_0_0 none l rr (constant S8x100x2048 .f32 0x00000000#32) (ix3 p r c)
      = ∑ k : Fin 7, l (ix3 p r k) * rr (ix3 p c k) := by
  refine (Ideal.matmul_constant_zero_apply dot_S8x100x7_S8x2048x7_S8x100x2048_2_2_1_1_0_0 none l rr (ix3 p r c)).trans ?_
  rw [← Equiv.sum_comp (contrEquiv1 dot_S8x100x7_S8x2048x7_S8x100x2048_2_2_1_1_0_0 7 rfl rfl).symm]
  refine Finset.sum_congr rfl fun k _ => ?_
  have hk := contrEquiv1_symm_val dot_S8x100x7_S8x2048x7_S8x100x2048_2_2_1_1_0_0 7 rfl rfl k
  have el : dot_S8x100x7_S8x2048x7_S8x100x2048_2_2_1_1_0_0.lhsIdx (ix3 p r c) ((contrEquiv1 dot_S8x100x7_S8x2048x7_S8x100x2048_2_2_1_1_0_0 7 rfl rfl).symm k) = ix3 p r k := funext fun a => Fin.ext (by
    match a with
    | ⟨0, _⟩ => exact lhs1_0 _ _
    | ⟨1, _⟩ => exact lhs1_1 _ _
    | ⟨2, _⟩ => exact (lhs1_2 _ _).trans hk)
  have er : dot_S8x100x7_S8x2048x7_S8x100x2048_2_2_1_1_0_0.rhsIdx (ix3 p r c) ((contrEquiv1 dot_S8x100x7_S8x2048x7_S8x100x2048_2_2_1_1_0_0 7 rfl rfl).symm k) = ix3 p c k := funext fun a => Fin.ext (by
    match a with
    | ⟨0, _⟩ => exact rhs1_0 _ _
    | ⟨1, _⟩ => exact rhs1_1 _ _
    | ⟨2, _⟩ => exact (rhs1_2 _ _).trans hk)
  rw [el, er]

/-- THE FIRST STORED VALUE at (p, r, c): the pooled feature of region `r` and channel `c` on the block's batch row `p`. -/
theorem pay1_apply (v0 : Vec Ideal S8x2048x7x7 .f32) (v1 : Vec Ideal S8x100x7x7 .f32) (p : Fin 8) (r : Fin 100) (c : Fin 2048) :
    k0_pay1 (F := Ideal) v0 v1 (ix3 p r c) = pooled (featRow v0 p) (maskRow v1 p) r c := by
  unfold k0_pay1 pooled featRow maskRow
  refine congrArg (fun z => Ideal.div z (Ideal.ofBits .f32 0x42440000#32)) ?_
  refine (rowProduct_apply _ _ p r c).trans ?_
  refine Finset.sum_congr rfl fun k _ => ?_
  rw [maskSum_apply, featSum_apply]

/-! ## The mean over the regions -/

/-- The sum over the regions. -/
theorem regionSum_apply (s : FVec Ideal S8x100x2048 .f32) (p : Fin 8) (c : Fin 2048) :
    multiReduction (F := Ideal) .add [1] S8x2048 s 0x00000000#32 reduces_S8x100x2048_S8x2048 (.inl rfl) rfl (ix2 p c)
      = ∑ r : Fin 100, s (ix3 p r c) := by
  refine (Ideal.multiReduction_add_single s _ reduces_S8x100x2048_S8x2048 _ _ (ix2 p c)).trans ?_
  refine Finset.sum_congr rfl fun r _ => congrArg s (funext fun a => Fin.ext ?_)
  match a with
  | ⟨0, _⟩ => rfl
  | ⟨1, _⟩ => rfl
  | ⟨2, _⟩ => rfl

/-- THE MEAN at (p, c): the mean pooled feature of channel `c` on the block's batch row `p`. -/
theorem pay2_apply (v0 : Vec Ideal S8x2048x7x7 .f32) (v1 : Vec Ideal S8x100x7x7 .f32) (p : Fin 8) (c : Fin 2048) :
    k0_pay2 (F := Ideal) v0 v1 (ix2 p c) = meanPooled (featRow v0 p) (maskRow v1 p) c := by
  unfold k0_pay2 meanPooled
  refine congrArg (fun z => Ideal.div z (Ideal.ofBits .f32 0x42C80000#32)) ?_
  refine (regionSum_apply _ p c).trans ?_
  exact Finset.sum_congr rfl fun r _ => pay1_apply v0 v1 p r c

/-! ## The affine map -/

theorem lhs2_0 (i : S8x512.Idx) (q : dot_S8x2048_S2048x512_S8x512_1_0_0_1_n_n.contr.Idx) :
    (dot_S8x2048_S2048x512_S8x512_1_0_0_1_n_n.lhsIdx i q 0).val = (i 0).val := by
  unfold DotDims.lhsIdx
  rw [dif_neg (show ¬(0 : Fin S8x2048.rank) ∈ dot_S8x2048_S2048x512_S8x512_1_0_0_1_n_n.lhsBatch by decide), dif_pos (show (0 : Fin S8x2048.rank) ∈ dot_S8x2048_S2048x512_S8x512_1_0_0_1_n_n.lhsNonContracting by decide)]
  rfl
theorem lhs2_1 (i : S8x512.Idx) (q : dot_S8x2048_S2048x512_S8x512_1_0_0_1_n_n.contr.Idx) :
    (dot_S8x2048_S2048x512_S8x512_1_0_0_1_n_n.lhsIdx i q 1).val = (q ⟨0, by decide⟩).val :=
  dot_S8x2048_S2048x512_S8x512_1_0_0_1_n_n.lhsIdx_val_of_single rfl i q
theorem rhs2_0 (i : S8x512.Idx) (q : dot_S8x2048_S2048x512_S8x512_1_0_0_1_n_n.contr.Idx) :
    (dot_S8x2048_S2048x512_S8x512_1_0_0_1_n_n.rhsIdx i q 0).val = (q ⟨0, by decide⟩).val :=
  dot_S8x2048_S2048x512_S8x512_1_0_0_1_n_n.rhsIdx_val_of_single rfl i q
theorem rhs2_1 (i : S8x512.Idx) (q : dot_S8x2048_S2048x512_S8x512_1_0_0_1_n_n.contr.Idx) :
    (dot_S8x2048_S2048x512_S8x512_1_0_0_1_n_n.rhsIdx i q 1).val = (i 1).val := by
  unfold DotDims.rhsIdx
  rw [dif_neg (show ¬(1 : Fin S2048x512.rank) ∈ dot_S8x2048_S2048x512_S8x512_1_0_0_1_n_n.rhsBatch by decide), dif_pos (show (1 : Fin S2048x512.rank) ∈ dot_S8x2048_S2048x512_S8x512_1_0_0_1_n_n.rhsNonContracting by decide)]
  rfl

/-- The body's second and third products, into the zero accumulator, at (p, h): the sum over the channels. -/
theorem channelProduct_apply (l : FVec Ideal S8x2048 .f32) (rr : FVec Ideal S2048x512 .f32) (p : Fin 8) (h : Fin 512) :
    matmul (F := Ideal) dot_S8x2048_S2048x512_S8x512_1_0_0_1_n_n none l rr (constant S8x512 .f32 0x00000000#32) (ix2 p h)
      = ∑ c : Fin 2048, l (ix2 p c) * rr (ix2 c h) := by
  refine (Ideal.matmul_constant_zero_apply dot_S8x2048_S2048x512_S8x512_1_0_0_1_n_n none l rr (ix2 p h)).trans ?_
  rw [← Equiv.sum_comp (contrEquiv1 dot_S8x2048_S2048x512_S8x512_1_0_0_1_n_n 2048 rfl rfl).symm]
  refine Finset.sum_congr rfl fun k _ => ?_
  have hk := contrEquiv1_symm_val dot_S8x2048_S2048x512_S8x512_1_0_0_1_n_n 2048 rfl rfl k
  have el : dot_S8x2048_S2048x512_S8x512_1_0_0_1_n_n.lhsIdx (ix2 p h) ((contrEquiv1 dot_S8x2048_S2048x512_S8x512_1_0_0_1_n_n 2048 rfl rfl).symm k) = ix2 p k := funext fun a => Fin.ext (by
    match a with
    | ⟨0, _⟩ => exact lhs2_0 _ _
    | ⟨1, _⟩ => exact (lhs2_1 _ _).trans hk)
  have er : dot_S8x2048_S2048x512_S8x512_1_0_0_1_n_n.rhsIdx (ix2 p h) ((contrEquiv1 dot_S8x2048_S2048x512_S8x512_1_0_0_1_n_n 2048 rfl rfl).symm k) = ix2 k h := funext fun a => Fin.ext (by
    match a with
    | ⟨0, _⟩ => exact (rhs2_0 _ _).trans hk
    | ⟨1, _⟩ => exact rhs2_1 _ _)
  rw [el, er]

/-- The affine map of a block of means, with the weights transposed and the bias laid along every row, at (p, h). -/
theorem affine_apply (mu : FVec Ideal S8x2048 .f32) (w : FVec Ideal S512x2048 .f32) (bv : FVec Ideal S512 .f32) (p : Fin 8) (h : Fin 512) :
    addf (F := Ideal) (matmul dot_S8x2048_S2048x512_S8x512_1_0_0_1_n_n none mu
        (transpose S2048x512 [1, 0] w transposes_S512x2048_p1_0_S2048x512) (constant S8x512 .f32 0x00000000#32))
      (broadcastTo S8x512 (shapeCast S1x512 bv shapeCasts_S512_S1x512) broadcasts_S1x512_S8x512) (ix2 p h)
      = (∑ c : Fin 2048, mu (ix2 p c) * w (ix2 h c)) + bv (ix1 h) := by
  show _ + _ = _
  refine congrArg₂ (· + ·) ?_ ?_
  · refine (channelProduct_apply mu _ p h).trans ?_
    refine Finset.sum_congr rfl fun c _ => congrArg (mu (ix2 p c) * ·) ?_
    exact transpose_ix2_apply w transposes_S512x2048_p1_0_S2048x512 c h
  · refine (broadcastTo_1b_ab_apply _ broadcasts_S1x512_S8x512 p h).trans ?_
    exact shapeCast_a_1a_apply bv shapeCasts_S512_S1x512 (0 : Fin 1) h

/-- THE SECOND STORED VALUE at (p, h). -/
theorem pay3_apply (v0 : Vec Ideal S8x2048x7x7 .f32) (v1 : Vec Ideal S8x100x7x7 .f32) (w : Vec Ideal S512x2048 .f32) (bv : Vec Ideal S512 .f32)
    (p : Fin 8) (h : Fin 512) :
    k0_pay3 (F := Ideal) v0 v1 w bv (ix2 p h) = initState (featRow v0 p) (maskRow v1 p) (weights w) (biases bv) h := by
  unfold k0_pay3 initState weights biases
  refine (affine_apply (k0_pay2 v0 v1) w bv p h).trans ?_
  refine congrArg (· + bv (ix1 h)) ?_
  exact Finset.sum_congr rfl fun c _ => congrArg (· * w (ix2 h c)) (pay2_apply v0 v1 p c)

/-- THE THIRD STORED VALUE at (p, h). -/
theorem pay4_apply (v0 : Vec Ideal S8x2048x7x7 .f32) (v1 : Vec Ideal S8x100x7x7 .f32) (w : Vec Ideal S512x2048 .f32) (bv : Vec Ideal S512 .f32)
    (p : Fin 8) (h : Fin 512) :
    k0_pay4 (F := Ideal) v0 v1 w bv (ix2 p h) = initState (featRow v0 p) (maskRow v1 p) (weights w) (biases bv) h := by
  unfold k0_pay4 initState weights biases
  refine (affine_apply (k0_pay2 v0 v1) w bv p h).trans ?_
  refine congrArg (· + bv (ix1 h)) ?_
  exact Finset.sum_congr rfl fun c _ => congrArg (· * w (ix2 h c)) (pay2_apply v0 v1 p c)

/-- The three stored values as whole blocks. -/
theorem pay1_eq (v0 : Vec Ideal S8x2048x7x7 .f32) (v1 : Vec Ideal S8x100x7x7 .f32) :
    k0_pay1 (F := Ideal) v0 v1 = pooledArr (B := 8) v0 v1 := by
  funext j
  obtain ⟨p, r, c, rfl⟩ : ∃ (p : Fin 8) (r : Fin 100) (c : Fin 2048), j = ix3 p r c := ⟨j 0, j 1, j 2, eq_ix3 j⟩
  exact pay1_apply v0 v1 p r c

theorem pay3_eq (v0 : Vec Ideal S8x2048x7x7 .f32) (v1 : Vec Ideal S8x100x7x7 .f32) (w : Vec Ideal S512x2048 .f32) (bv : Vec Ideal S512 .f32) :
    k0_pay3 (F := Ideal) v0 v1 w bv = hiddenArr (B := 8) v0 v1 w bv := by
  funext j
  obtain ⟨p, h, rfl⟩ : ∃ (p : Fin 8) (h : Fin 512), j = ix2 p h := ⟨j 0, j 1, eq_ix2 j⟩
  exact pay3_apply v0 v1 w bv p h

theorem pay4_eq (v0 : Vec Ideal S8x2048x7x7 .f32) (v1 : Vec Ideal S8x100x7x7 .f32) (w : Vec Ideal S512x2048 .f32) (bv : Vec Ideal S512 .f32) :
    k0_pay4 (F := Ideal) v0 v1 w bv = hiddenArr (B := 8) v0 v1 w bv := by
  funext j
  obtain ⟨p, h, rfl⟩ : ∃ (p : Fin 8) (h : Fin 512), j = ix2 p h := ⟨j 0, j 1, eq_ix2 j⟩
  exact pay4_apply v0 v1 w bv p h

end Cert.KernelIdeal.Body

end
-- ==== Proof.Blocks.lean ====
/-
  From the blocks the grid points write back to the three result arrays.

  Grid point `t` stages batch rows `8t … 8t + 7` of the features and of the masks, the whole weight matrices and
  bias vectors, and writes back batch rows `8t … 8t + 7` of each result. The body's stored values are the row
  functions of `PoolSpec` of the staged rows (`BodyRows`), and batch row `p` of a staged block is batch row `8t + p`
  of the array, so what point `t` writes back is block `t` of `pooledArr` / `hiddenArr` of the whole argument arrays.
  The eight blocks cover each result array (row `b` lies in block `b / 8`), which gives the arrays after the run.
-/
import proofs.«138623_j1709396983953_1_alg».proof.Proof.Gen.KernelIdeal.Value
import proofs.«138623_j1709396983953_1_alg».proof.Proof.BodyRows
import proofs.«138623_j1709396983953_1_alg».proof.Proof.PoolSpec
import Idealize.ShloMosaic.Lib.Pipeline.Value
import Idealize.ShloMosaic.Lib.ValueIdx

noncomputable section

namespace Cert.KernelIdeal.Blocks

open Cert.KernelIdeal Cert.KernelIdeal.Gen Cert.KernelIdeal.Value Cert.KernelIdeal.Body Cert.Pooling
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The grid has eight points. -/
theorem point_lt (t : Fin cfg0.N) : t.val < 8 := by
  exact lt_of_lt_of_eq t.isLt N_0

/-- The printed index maps, decided over the eight points: the features, the masks and the three results move along
    the batch axis with the point; the weights and the biases stay. -/
theorem idx_facts : ∀ t : Fin cfg0.N,
    (win0_0.index t (0 : Fin 4) = t.val ∧ win0_0.index t (1 : Fin 4) = 0 ∧ win0_0.index t (2 : Fin 4) = 0 ∧ win0_0.index t (3 : Fin 4) = 0)
    ∧ (win0_1.index t (0 : Fin 4) = t.val ∧ win0_1.index t (1 : Fin 4) = 0 ∧ win0_1.index t (2 : Fin 4) = 0 ∧ win0_1.index t (3 : Fin 4) = 0)
    ∧ (win0_2.index t (0 : Fin 2) = 0 ∧ win0_2.index t (1 : Fin 2) = 0)
    ∧ win0_3.index t (0 : Fin 1) = 0
    ∧ (win0_4.index t (0 : Fin 2) = 0 ∧ win0_4.index t (1 : Fin 2) = 0)
    ∧ win0_5.index t (0 : Fin 1) = 0
    ∧ (win0_6.index t (0 : Fin 3) = t.val ∧ win0_6.index t (1 : Fin 3) = 0 ∧ win0_6.index t (2 : Fin 3) = 0)
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

/-! ## The staged blocks as rows of the argument arrays -/

/-- An entry of the feature block at point `t` is the array's entry eight·`t` batch rows further down. -/
theorem feat_block (c : Dev nD) (t : Fin cfg0.N) (y : S8x2048x7x7.Idx) (k : S64x2048x7x7.Idx)
    (h0 : (k 0).val = 8 * t.val + (y 0).val) (h1 : (k 1).val = (y 1).val) (h2 : (k 2).val = (y 2).val) (h3 : (k 3).val = (y 3).val) :
    (iblk m c 0 t : Vec Ideal S8x2048x7x7 .f32) y = (V m c main_arg0 : S64x2048x7x7.Idx → EReal) k := by
  obtain ⟨⟨e0, e1, e2, e3⟩, -⟩ := idx_facts t
  unfold iblk
  rw [View.read_apply]
  show V m c main_arg0 _ = V m c main_arg0 _
  congr 1
  funext a
  apply Fin.ext
  match a with
  | ⟨0, _⟩ => show win0_0.index t (0 : Fin 4) * 8 + 1 * (y 0).val = (k 0).val; rw [e0, h0]; omega
  | ⟨1, _⟩ => show win0_0.index t (1 : Fin 4) * 2048 + 1 * (y 1).val = (k 1).val; rw [e1, h1]; omega
  | ⟨2, _⟩ => show win0_0.index t (2 : Fin 4) * 7 + 1 * (y 2).val = (k 2).val; rw [e2, h2]; omega
  | ⟨3, _⟩ => show win0_0.index t (3 : Fin 4) * 7 + 1 * (y 3).val = (k 3).val; rw [e3, h3]; omega

/-- An entry of the mask block at point `t` is the array's entry eight·`t` batch rows further down. -/
theorem mask_block (c : Dev nD) (t : Fin cfg0.N) (y : S8x100x7x7.Idx) (k : S64x100x7x7.Idx)
    (h0 : (k 0).val = 8 * t.val + (y 0).val) (h1 : (k 1).val = (y 1).val) (h2 : (k 2).val = (y 2).val) (h3 : (k 3).val = (y 3).val) :
    (iblk m c 1 t : Vec Ideal S8x100x7x7 .f32) y = (V m c main_arg1 : S64x100x7x7.Idx → EReal) k := by
  obtain ⟨-, ⟨e0, e1, e2, e3⟩, -⟩ := idx_facts t
  unfold iblk
  rw [View.read_apply]
  show V m c main_arg1 _ = V m c main_arg1 _
  congr 1
  funext a
  apply Fin.ext
  match a with
  | ⟨0, _⟩ => show win0_1.index t (0 : Fin 4) * 8 + 1 * (y 0).val = (k 0).val; rw [e0, h0]; omega
  | ⟨1, _⟩ => show win0_1.index t (1 : Fin 4) * 100 + 1 * (y 1).val = (k 1).val; rw [e1, h1]; omega
  | ⟨2, _⟩ => show win0_1.index t (2 : Fin 4) * 7 + 1 * (y 2).val = (k 2).val; rw [e2, h2]; omega
  | ⟨3, _⟩ => show win0_1.index t (3 : Fin 4) * 7 + 1 * (y 3).val = (k 3).val; rw [e3, h3]; omega

/-- The staged first weight matrix is the whole argument. -/
theorem weight1_block (c : Dev nD) (t : Fin cfg0.N) :
    (iblk m c 2 t : Vec Ideal S512x2048 .f32) = (V m c main_arg2 : S512x2048.Idx → EReal) := by
  obtain ⟨-, -, ⟨e0, e1⟩, -⟩ := idx_facts t
  funext y
  unfold iblk
  rw [View.read_apply]
  show V m c main_arg2 _ = V m c main_arg2 _
  congr 1
  funext a
  apply Fin.ext
  match a with
  | ⟨0, _⟩ => show win0_2.index t (0 : Fin 2) * 512 + 1 * (y 0).val = (y 0).val; rw [e0]; omega
  | ⟨1, _⟩ => show win0_2.index t (1 : Fin 2) * 2048 + 1 * (y 1).val = (y 1).val; rw [e1]; omega

/-- The staged first bias vector is the whole argument. -/
theorem bias1_block (c : Dev nD) (t : Fin cfg0.N) :
    (iblk m c 3 t : Vec Ideal S512 .f32) = (V m c main_arg3 : S512.Idx → EReal) := by
  obtain ⟨-, -, -, e0, -⟩ := idx_facts t
  funext y
  unfold iblk
  rw [View.read_apply]
  show V m c main_arg3 _ = V m c main_arg3 _
  congr 1
  funext a
  apply Fin.ext
  match a with
  | ⟨0, _⟩ => show win0_3.index t (0 : Fin 1) * 512 + 1 * (y 0).val = (y 0).val; rw [e0]; omega

/-- The staged second weight matrix is the whole argument. -/
theorem weight2_block (c : Dev nD) (t : Fin cfg0.N) :
    (iblk m c 4 t : Vec Ideal S512x2048 .f32) = (V m c main_arg4 : S512x2048.Idx → EReal) := by
  obtain ⟨-, -, -, -, ⟨e0, e1⟩, -⟩ := idx_facts t
  funext y
  unfold iblk
  rw [View.read_apply]
  show V m c main_arg4 _ = V m c main_arg4 _
  congr 1
  funext a
  apply Fin.ext
  match a with
  | ⟨0, _⟩ => show win0_4.index t (0 : Fin 2) * 512 + 1 * (y 0).val = (y 0).val; rw [e0]; omega
  | ⟨1, _⟩ => show win0_4.index t (1 : Fin 2) * 2048 + 1 * (y 1).val = (y 1).val; rw [e1]; omega

/-- The staged second bias vector is the whole argument. -/
theorem bias2_block (c : Dev nD) (t : Fin cfg0.N) :
    (iblk m c 5 t : Vec Ideal S512 .f32) = (V m c main_arg5 : S512.Idx → EReal) := by
  obtain ⟨-, -, -, -, -, e0, -⟩ := idx_facts t
  funext y
  unfold iblk
  rw [View.read_apply]
  show V m c main_arg5 _ = V m c main_arg5 _
  congr 1
  funext a
  apply Fin.ext
  match a with
  | ⟨0, _⟩ => show win0_5.index t (0 : Fin 1) * 512 + 1 * (y 0).val = (y 0).val; rw [e0]; omega

/-- Batch row `p` of the staged features is batch row `8t + p` of the array. -/
theorem featRow_block (c : Dev nD) (t : Fin cfg0.N) (p : Fin 8) (q : Fin 64) (hq : q.val = 8 * t.val + p.val) :
    featRow (B := 8) (iblk m c 0 t) p = featRow (B := 64) (V m c main_arg0) q :=
  funext fun ch => funext fun k => funext fun j => feat_block m c t (ix4 p ch k j) (ix4 q ch k j) hq rfl rfl rfl

/-- Batch row `p` of the staged masks is batch row `8t + p` of the array. -/
theorem maskRow_block (c : Dev nD) (t : Fin cfg0.N) (p : Fin 8) (q : Fin 64) (hq : q.val = 8 * t.val + p.val) :
    maskRow (B := 8) (iblk m c 1 t) p = maskRow (B := 64) (V m c main_arg1) q :=
  funext fun r => funext fun i => funext fun k => mask_block m c t (ix4 p r i k) (ix4 q r i k) hq rfl rfl rfl

/-! ## What each point writes back -/

/-- The pooled features of a block of eight batch rows, at an entry, are those of the whole arrays at the entry eight·`t`
    batch rows further down. -/
theorem pooled_rows (c : Dev nD) (t : Fin cfg0.N) (j : S8x100x2048.Idx) (i : S64x100x2048.Idx)
    (h0 : (i 0).val = 8 * t.val + (j 0).val) (h1 : (i 1).val = (j 1).val) (h2 : (i 2).val = (j 2).val) :
    pooledArr (B := 8) (iblk m c 0 t) (iblk m c 1 t) j = pooledArr (B := 64) (V m c main_arg0) (V m c main_arg1) i := by
  obtain ⟨p, r, ch, rfl⟩ : ∃ (p : Fin 8) (r : Fin 100) (ch : Fin 2048), j = ix3 p r ch := ⟨j 0, j 1, j 2, eq_ix3 j⟩
  obtain ⟨q, r', ch', rfl⟩ : ∃ (q : Fin 64) (r' : Fin 100) (ch' : Fin 2048), i = ix3 q r' ch' := ⟨i 0, i 1, i 2, eq_ix3 i⟩
  obtain rfl : r' = r := Fin.ext h1
  obtain rfl : ch' = ch := Fin.ext h2
  rw [pooledArr_apply, pooledArr_apply, featRow_block m c t p q h0, maskRow_block m c t p q h0]

/-- The same of a hidden-state initialiser. -/
theorem hidden_rows (c : Dev nD) (t : Fin cfg0.N) (w : S512x2048.Idx → EReal) (bv : S512.Idx → EReal) (j : S8x512.Idx) (i : S64x512.Idx)
    (h0 : (i 0).val = 8 * t.val + (j 0).val) (h1 : (i 1).val = (j 1).val) :
    hiddenArr (B := 8) (iblk m c 0 t) (iblk m c 1 t) w bv j = hiddenArr (B := 64) (V m c main_arg0) (V m c main_arg1) w bv i := by
  obtain ⟨p, h, rfl⟩ : ∃ (p : Fin 8) (h : Fin 512), j = ix2 p h := ⟨j 0, j 1, eq_ix2 j⟩
  obtain ⟨q, h', rfl⟩ : ∃ (q : Fin 64) (h' : Fin 512), i = ix2 q h' := ⟨i 0, i 1, eq_ix2 i⟩
  obtain rfl : h' = h := Fin.ext h1
  rw [hiddenArr_apply, hiddenArr_apply, featRow_block m c t p q h0, maskRow_block m c t p q h0]

/-- WHAT POINT `t` WRITES BACK to the first result is block `t` of the pooled features of the whole arrays. -/
theorem flushed6_eq (c : Dev nD) (t : Fin cfg0.N) :
    (dats m 0 c).flushed 6 t
      = ((cfg0.win 6).blk t).view.read (Elt Ideal) (pooledArr (B := 64) (V m c main_arg0) (V m c main_arg1)) := by
  obtain ⟨-, -, -, -, -, -, ⟨e0, e1, e2⟩, -⟩ := idx_facts t
  rw [flushed6]
  unfold out0_6
  rw [View.canon_unit_zero hz3]
  simp only [View.ld_unit_zero (S := S8x2048x7x7) hz4, View.ld_unit_zero (S := S8x100x7x7) hz4]
  rw [pay1_eq]
  funext j
  show pooledArr (B := 8) (iblk m c 0 t) (iblk m c 1 t) j
    = pooledArr (B := 64) (V m c main_arg0) (V m c main_arg1) (((cfg0.win 6).blk t).view.emb j)
  refine pooled_rows m c t j _ ?_ ?_ ?_
  · show win0_6.index t (0 : Fin 3) * 8 + 1 * (j 0).val = 8 * t.val + (j 0).val; rw [e0]; omega
  · show win0_6.index t (1 : Fin 3) * 100 + 1 * (j 1).val = (j 1).val; rw [e1]; omega
  · show win0_6.index t (2 : Fin 3) * 2048 + 1 * (j 2).val = (j 2).val; rw [e2]; omega

/-- WHAT POINT `t` WRITES BACK to the second result is block `t` of the first hidden-state initialiser. -/
theorem flushed7_eq (c : Dev nD) (t : Fin cfg0.N) :
    (dats m 0 c).flushed 7 t
      = ((cfg0.win 7).blk t).view.read (Elt Ideal) (hiddenArr (B := 64) (V m c main_arg0) (V m c main_arg1) (V m c main_arg2) (V m c main_arg3)) := by
  obtain ⟨-, -, -, -, -, -, -, ⟨e0, e1⟩, -⟩ := idx_facts t
  rw [flushed7]
  unfold out0_7
  rw [View.canon_unit_zero hz2]
  simp only [View.ld_unit_zero (S := S8x2048x7x7) hz4, View.ld_unit_zero (S := S8x100x7x7) hz4,
    View.ld_unit_zero (S := S512x2048) hz2, View.ld_unit_zero (S := S512) hz1]
  rw [pay3_eq, weight1_block, bias1_block]
  funext j
  show hiddenArr (B := 8) (iblk m c 0 t) (iblk m c 1 t) (V m c main_arg2) (V m c main_arg3) j
    = hiddenArr (B := 64) (V m c main_arg0) (V m c main_arg1) (V m c main_arg2) (V m c main_arg3) (((cfg0.win 7).blk t).view.emb j)
  refine hidden_rows m c t _ _ j _ ?_ ?_
  · show win0_7.index t (0 : Fin 2) * 8 + 1 * (j 0).val = 8 * t.val + (j 0).val; rw [e0]; omega
  · show win0_7.index t (1 : Fin 2) * 512 + 1 * (j 1).val = (j 1).val; rw [e1]; omega

/-- WHAT POINT `t` WRITES BACK to the third result is block `t` of the second hidden-state initialiser. -/
theorem flushed8_eq (c : Dev nD) (t : Fin cfg0.N) :
    (dats m 0 c).flushed 8 t
      = ((cfg0.win 8).blk t).view.read (Elt Ideal) (hiddenArr (B := 64) (V m c main_arg0) (V m c main_arg1) (V m c main_arg4) (V m c main_arg5)) := by
  obtain ⟨-, -, -, -, -, -, -, -, ⟨e0, e1⟩⟩ := idx_facts t
  rw [flushed8]
  unfold out0_8
  rw [View.canon_unit_zero hz2]
  simp only [View.ld_unit_zero (S := S8x2048x7x7) hz4, View.ld_unit_zero (S := S8x100x7x7) hz4,
    View.ld_unit_zero (S := S512x2048) hz2, View.ld_unit_zero (S := S512) hz1]
  rw [pay4_eq, weight2_block, bias2_block]
  funext j
  show hiddenArr (B := 8) (iblk m c 0 t) (iblk m c 1 t) (V m c main_arg4) (V m c main_arg5) j
    = hiddenArr (B := 64) (V m c main_arg0) (V m c main_arg1) (V m c main_arg4) (V m c main_arg5) (((cfg0.win 8).blk t).view.emb j)
  refine hidden_rows m c t _ _ j _ ?_ ?_
  · show win0_8.index t (0 : Fin 2) * 8 + 1 * (j 0).val = 8 * t.val + (j 0).val; rw [e0]; omega
  · show win0_8.index t (1 : Fin 2) * 512 + 1 * (j 1).val = (j 1).val; rw [e1]; omega

/-! ## The blocks cover the arrays -/

/-- An index of the first result lies in point `t`'s block iff each coordinate lies in the block's range. -/
theorem mem_blk6 (t : Fin cfg0.N) (i : S64x100x2048.Idx) :
    i ∈ ((cfg0.win 6).blk t).view.set ↔ ∀ a : Fin 3, win0_6.index t a * S8x100x2048.size a ≤ (i a).val ∧ (i a).val < win0_6.index t a * S8x100x2048.size a + S8x100x2048.size a := by
  show i ∈ ((View.whole main_v0_0).slice (win0_6.rect t)).set ↔ _
  rw [View.set_slice_whole, Rect.mem_set_unit]
  exact Iff.rfl

theorem mem_blk7 (t : Fin cfg0.N) (i : S64x512.Idx) :
    i ∈ ((cfg0.win 7).blk t).view.set ↔ ∀ a : Fin 2, win0_7.index t a * S8x512.size a ≤ (i a).val ∧ (i a).val < win0_7.index t a * S8x512.size a + S8x512.size a := by
  show i ∈ ((View.whole main_v0_1).slice (win0_7.rect t)).set ↔ _
  rw [View.set_slice_whole, Rect.mem_set_unit]
  exact Iff.rfl

theorem mem_blk8 (t : Fin cfg0.N) (i : S64x512.Idx) :
    i ∈ ((cfg0.win 8).blk t).view.set ↔ ∀ a : Fin 2, win0_8.index t a * S8x512.size a ≤ (i a).val ∧ (i a).val < win0_8.index t a * S8x512.size a + S8x512.size a := by
  show i ∈ ((View.whole main_v0_2).slice (win0_8.rect t)).set ↔ _
  rw [View.set_slice_whole, Rect.mem_set_unit]
  exact Iff.rfl

/-- The point whose block holds batch row `b`. -/
def pointOf (b : Nat) (hb : b < 64) : Fin cfg0.N := ⟨b / 8, by rw [show cfg0.N = 8 from N_0]; omega⟩

/-- Every index of the first result lies in the block of the point its batch row belongs to. -/
theorem cover6 (i : S64x100x2048.Idx) : ∃ t : Fin cfg0.N, (cfg0.win 6).flush t = true ∧ i ∈ ((cfg0.win 6).blk t).view.set := by
  have hi0 : (i 0).val < 64 := (i 0).isLt
  have hi1 : (i 1).val < 100 := (i 1).isLt
  have hi2 : (i 2).val < 2048 := (i 2).isLt
  refine ⟨pointOf (i 0).val hi0, flush0_6 _, ?_⟩
  obtain ⟨-, -, -, -, -, -, ⟨e0, e1, e2⟩, -⟩ := idx_facts (pointOf (i 0).val hi0)
  have ht : (pointOf (i 0).val hi0).val = (i 0).val / 8 := rfl
  rw [mem_blk6]
  intro a
  match a with
  | ⟨0, _⟩ => show win0_6.index _ (0 : Fin 3) * 8 ≤ (i 0).val ∧ (i 0).val < win0_6.index _ (0 : Fin 3) * 8 + 8; rw [e0, ht]; omega
  | ⟨1, _⟩ => show win0_6.index _ (1 : Fin 3) * 100 ≤ (i 1).val ∧ (i 1).val < win0_6.index _ (1 : Fin 3) * 100 + 100; rw [e1]; omega
  | ⟨2, _⟩ => show win0_6.index _ (2 : Fin 3) * 2048 ≤ (i 2).val ∧ (i 2).val < win0_6.index _ (2 : Fin 3) * 2048 + 2048; rw [e2]; omega

theorem cover7 (i : S64x512.Idx) : ∃ t : Fin cfg0.N, (cfg0.win 7).flush t = true ∧ i ∈ ((cfg0.win 7).blk t).view.set := by
  have hi0 : (i 0).val < 64 := (i 0).isLt
  have hi1 : (i 1).val < 512 := (i 1).isLt
  refine ⟨pointOf (i 0).val hi0, flush0_7 _, ?_⟩
  obtain ⟨-, -, -, -, -, -, -, ⟨e0, e1⟩, -⟩ := idx_facts (pointOf (i 0).val hi0)
  have ht : (pointOf (i 0).val hi0).val = (i 0).val / 8 := rfl
  rw [mem_blk7]
  intro a
  match a with
  | ⟨0, _⟩ => show win0_7.index _ (0 : Fin 2) * 8 ≤ (i 0).val ∧ (i 0).val < win0_7.index _ (0 : Fin 2) * 8 + 8; rw [e0, ht]; omega
  | ⟨1, _⟩ => show win0_7.index _ (1 : Fin 2) * 512 ≤ (i 1).val ∧ (i 1).val < win0_7.index _ (1 : Fin 2) * 512 + 512; rw [e1]; omega

theorem cover8 (i : S64x512.Idx) : ∃ t : Fin cfg0.N, (cfg0.win 8).flush t = true ∧ i ∈ ((cfg0.win 8).blk t).view.set := by
  have hi0 : (i 0).val < 64 := (i 0).isLt
  have hi1 : (i 1).val < 512 := (i 1).isLt
  refine ⟨pointOf (i 0).val hi0, flush0_8 _, ?_⟩
  obtain ⟨-, -, -, -, -, -, -, -, ⟨e0, e1⟩⟩ := idx_facts (pointOf (i 0).val hi0)
  have ht : (pointOf (i 0).val hi0).val = (i 0).val / 8 := rfl
  rw [mem_blk8]
  intro a
  match a with
  | ⟨0, _⟩ => show win0_8.index _ (0 : Fin 2) * 8 ≤ (i 0).val ∧ (i 0).val < win0_8.index _ (0 : Fin 2) * 8 + 8; rw [e0, ht]; omega
  | ⟨1, _⟩ => show win0_8.index _ (1 : Fin 2) * 512 ≤ (i 1).val ∧ (i 1).val < win0_8.index _ (1 : Fin 2) * 512 + 512; rw [e1]; omega

/-! ## The arrays after the run -/

theorem final6 (c : Dev nD) :
    (dats m 0 c).arrAt 6 cfg0.N = pooledArr (B := 64) (V m c main_arg0) (V m c main_arg1) :=
  (dats m 0 c).arrAt_eq_of_cover 6 _ (fun t _ => flushed6_eq m c t) cover6

theorem final7 (c : Dev nD) :
    (dats m 0 c).arrAt 7 cfg0.N = hiddenArr (B := 64) (V m c main_arg0) (V m c main_arg1) (V m c main_arg2) (V m c main_arg3) :=
  (dats m 0 c).arrAt_eq_of_cover 7 _ (fun t _ => flushed7_eq m c t) cover7

theorem final8 (c : Dev nD) :
    (dats m 0 c).arrAt 8 cfg0.N = hiddenArr (B := 64) (V m c main_arg0) (V m c main_arg1) (V m c main_arg4) (V m c main_arg5) :=
  (dats m 0 c).arrAt_eq_of_cover 8 _ (fun t _ => flushed8_eq m c t) cover8

/-- The kernel's run, read: every weakly fair execution ends with the three result arrays at the row functions of the
    argument arrays, and the arguments unchanged. -/
theorem run : θ_run defs (onTc (τ := τ) (main (F := Ideal))) ⟨m, fun _ => 0, ρ⟩ fun r => ∀ c : Dev nD,
      r.2.mem ((c : Thread nD τ).loc main_v0_0) = pooledArr (B := 64) (m ((c : Thread nD τ).loc main_arg0)) (m ((c : Thread nD τ).loc main_arg1))
      ∧ r.2.mem ((c : Thread nD τ).loc main_v0_1) = hiddenArr (B := 64) (m ((c : Thread nD τ).loc main_arg0)) (m ((c : Thread nD τ).loc main_arg1)) (m ((c : Thread nD τ).loc main_arg2)) (m ((c : Thread nD τ).loc main_arg3))
      ∧ r.2.mem ((c : Thread nD τ).loc main_v0_2) = hiddenArr (B := 64) (m ((c : Thread nD τ).loc main_arg0)) (m ((c : Thread nD τ).loc main_arg1)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final6 m c), (h c).2.1.trans (final7 m c), (h c).2.2.1.trans (final8 m c), (h c).2.2.2⟩)
    (Value.run_blocks m ρ)

end Cert.KernelIdeal.Blocks

end
-- ==== Proof.RefRows.lean ====
/-
  The reference's three results are the row functions of `PoolSpec` applied to every batch row.

  The reference sums the features over the last grid axis and the masks over the first, contracts the two over the
  shared axis per batch row, divides by 49; sums over the regions, divides by 100; multiplies by the transposed
  weights and adds the bias laid along the rows. Each of its sums starts from the zero word, which is the number
  zero, so read at an index its results are `pooled`, `meanPooled` and `initState` of the index's batch row.
-/
import proofs.«138623_j1709396983953_1_alg».proof.Proof.Gen.ReferenceIdeal.Read
import proofs.«138623_j1709396983953_1_alg».proof.Proof.PoolSpec
import Idealize.ShloMosaic.Lib.ValueIdx

noncomputable section

namespace Cert.ReferenceIdeal.Rows

open Cert.ReferenceIdeal Cert.ReferenceIdeal.Read Cert.Pooling
open Idealize.ShloMosaic Idealize.ShloMosaic.ValueIdx

/-- The reference's first result is the pooled features of every batch row. -/
theorem pooled_eq (x0 : (⟨S64x2048x7x7, .f32⟩ : BufTy).Contents (Elt Ideal)) (x1 : (⟨S64x100x7x7, .f32⟩ : BufTy).Contents (Elt Ideal)) :
    val_main_v4 (F := Ideal) x0 x1 = pooledArr (B := 64) x0 x1 := by
  funext j
  obtain ⟨b, r, c, rfl⟩ : ∃ (b : Fin 64) (r : Fin 100) (c : Fin 2048), j = ix3 b r c := ⟨j 0, j 1, j 2, eq_ix3 j⟩
  rw [pooledArr_apply, val_main_v4_apply, val_main_v2_apply, val_main_v3_apply, val_main_cst_1_apply]
  unfold pooled featRow maskRow
  refine congrArg (fun z => Ideal.div z (Ideal.ofBits .f32 0x42440000#32)) ?_
  refine Finset.sum_congr rfl fun k _ => ?_
  rw [val_main_v1_apply, val_main_v0_apply, val_main_cst_apply, val_main_cst_0_apply]
  refine congrArg₂ (· * ·) ?_ ?_
  · refine (zero_word_add _).trans (Finset.sum_congr rfl fun i _ => congrArg x1 (funext fun a => Fin.ext ?_))
    match a with
    | ⟨0, _⟩ => rfl
    | ⟨1, _⟩ => rfl
    | ⟨2, _⟩ => rfl
    | ⟨3, _⟩ => rfl
  · refine (zero_word_add _).trans (Finset.sum_congr rfl fun i _ => congrArg x0 (funext fun a => Fin.ext ?_))
    match a with
    | ⟨0, _⟩ => rfl
    | ⟨1, _⟩ => rfl
    | ⟨2, _⟩ => rfl
    | ⟨3, _⟩ => rfl

/-- The reference's mean over the regions, at (b, c). -/
theorem mean_apply (x0 : (⟨S64x2048x7x7, .f32⟩ : BufTy).Contents (Elt Ideal)) (x1 : (⟨S64x100x7x7, .f32⟩ : BufTy).Contents (Elt Ideal))
    (b : Fin 64) (c : Fin 2048) :
    val_main_v7 (F := Ideal) x0 x1 (ix2 b c) = meanPooled (featRow x0 b) (maskRow x1 b) c := by
  rw [val_main_v7_apply, val_main_v5_apply, val_main_v6_apply, val_main_cst_3_apply, val_main_cst_2_apply, pooled_eq]
  unfold meanPooled
  refine congrArg (fun z => Ideal.div z (Ideal.ofBits .f32 0x42C80000#32)) ?_
  refine (zero_word_add _).trans (Finset.sum_congr rfl fun r _ => ?_)
  have e : idx_main_v5 (ix2 b c) r = ix3 b r c := funext fun a => Fin.ext (by
    match a with
    | ⟨0, _⟩ => rfl
    | ⟨1, _⟩ => rfl
    | ⟨2, _⟩ => rfl)
  rw [e, pooledArr_apply]

/-- The reference's second result is the first hidden-state initialiser of every batch row. -/
theorem hidden1_eq (x0 : (⟨S64x2048x7x7, .f32⟩ : BufTy).Contents (Elt Ideal)) (x1 : (⟨S64x100x7x7, .f32⟩ : BufTy).Contents (Elt Ideal))
    (x2 : (⟨S512x2048, .f32⟩ : BufTy).Contents (Elt Ideal)) (x3 : (⟨S512, .f32⟩ : BufTy).Contents (Elt Ideal)) :
    val_main_v12 (F := Ideal) x0 x1 x2 x3 = hiddenArr (B := 64) x0 x1 x2 x3 := by
  funext j
  obtain ⟨b, h, rfl⟩ : ∃ (b : Fin 64) (h : Fin 512), j = ix2 b h := ⟨j 0, j 1, eq_ix2 j⟩
  rw [hiddenArr_apply, val_main_v12_apply, val_main_v9_apply, val_main_v11_apply, val_main_v10_apply]
  unfold initState weights biases
  refine congrArg₂ (· + ·) ?_ ?_
  · refine Finset.sum_congr rfl fun c _ => ?_
    have el : lidx_main_v9 (ix2 b h) c = ix2 b c := funext fun a => Fin.ext (by
      match a with
      | ⟨0, _⟩ => rfl
      | ⟨1, _⟩ => rfl)
    rw [el, mean_apply, val_main_v8_apply]
    refine congrArg (meanPooled (featRow x0 b) (maskRow x1 b) c * ·) (congrArg x2 (funext fun a => Fin.ext ?_))
    match a with
    | ⟨0, _⟩ => rfl
    | ⟨1, _⟩ => rfl
  · refine congrArg x3 (funext fun a => Fin.ext ?_)
    match a with
    | ⟨0, _⟩ => rfl

/-- The reference's third result is the second hidden-state initialiser of every batch row. -/
theorem hidden2_eq (x0 : (⟨S64x2048x7x7, .f32⟩ : BufTy).Contents (Elt Ideal)) (x1 : (⟨S64x100x7x7, .f32⟩ : BufTy).Contents (Elt Ideal))
    (x4 : (⟨S512x2048, .f32⟩ : BufTy).Contents (Elt Ideal)) (x5 : (⟨S512, .f32⟩ : BufTy).Contents (Elt Ideal)) :
    val_main_v17 (F := Ideal) x0 x1 x4 x5 = hiddenArr (B := 64) x0 x1 x4 x5 := by
  funext j
  obtain ⟨b, h, rfl⟩ : ∃ (b : Fin 64) (h : Fin 512), j = ix2 b h := ⟨j 0, j 1, eq_ix2 j⟩
  rw [hiddenArr_apply, val_main_v17_apply, val_main_v14_apply, val_main_v16_apply, val_main_v15_apply]
  unfold initState weights biases
  refine congrArg₂ (· + ·) ?_ ?_
  · refine Finset.sum_congr rfl fun c _ => ?_
    have el : lidx_main_v14 (ix2 b h) c = ix2 b c := funext fun a => Fin.ext (by
      match a with
      | ⟨0, _⟩ => rfl
      | ⟨1, _⟩ => rfl)
    rw [el, mean_apply, val_main_v13_apply]
    refine congrArg (meanPooled (featRow x0 b) (maskRow x1 b) c * ·) (congrArg x4 (funext fun a => Fin.ext ?_))
    match a with
    | ⟨0, _⟩ => rfl
    | ⟨1, _⟩ => rfl
  · refine congrArg x5 (funext fun a => Fin.ext ?_)
    match a with
    | ⟨0, _⟩ => rfl

end Cert.ReferenceIdeal.Rows

end
-- ==== Proof.lean ====
/-
  The kernel pools ResNet features under region masks and initialises two hidden states from the pooled mean;
  its reference computes the same three arrays with whole-array operations.

  For every batch row `b`, region `r`, channel `c` and hidden unit `h`, over the extended reals,

      S[b, r, c] = (∑ k, (∑ i, masks[b, r, i, k]) · (∑ j, feats[b, c, k, j])) / 49,
      mean[b, c] = (∑ r, S[b, r, c]) / 100,
      h0[b, h]   = (∑ c, mean[b, c] · W1[h, c]) + b1[h],      c0[b, h] = (∑ c, mean[b, c] · W2[h, c]) + b2[h].

  The kernel computes these on blocks of eight batch rows, one block per grid point; the reference on all sixty-four
  rows at once. Both apply the same operations in the same arrangement, so the two sides meet with no law of
  arithmetic beyond `0 + x = x` (each sum starts from the zero word) and the finiteness of the inputs is never used:
  `PoolSpec` states the row functions, `BodyRows` reads the kernel body's stored values as them, `Blocks` carries the
  blocks to the whole result arrays, `RefRows` reads the reference's results as them. The three frames are the
  generated frame runs (the reference's, its generated run with the results dropped), and the kernel's idealization
  rewrote no operation, so there is nothing to preserve.
-/
import proofs.«138623_j1709396983953_1_alg».proof.Defs
import proofs.«138623_j1709396983953_1_alg».proof.Proof.Gen.Kernel
import proofs.«138623_j1709396983953_1_alg».proof.Proof.Gen.Kernel.Skeleton
import proofs.«138623_j1709396983953_1_alg».proof.Proof.Gen.Kernel.Launch
import proofs.«138623_j1709396983953_1_alg».proof.Proof.Gen.Kernel.Points
import proofs.«138623_j1709396983953_1_alg».proof.Proof.Gen.Kernel.Frame
import proofs.«138623_j1709396983953_1_alg».proof.Proof.Gen.KernelIdeal
import proofs.«138623_j1709396983953_1_alg».proof.Proof.Gen.KernelIdeal.Skeleton
import proofs.«138623_j1709396983953_1_alg».proof.Proof.Gen.KernelIdeal.Launch
import proofs.«138623_j1709396983953_1_alg».proof.Proof.Gen.KernelIdeal.Points
import proofs.«138623_j1709396983953_1_alg».proof.Proof.Gen.KernelIdeal.Frame
import proofs.«138623_j1709396983953_1_alg».proof.Proof.Gen.ReferenceIdeal
import proofs.«138623_j1709396983953_1_alg».proof.Proof.Gen.Pre_finite_inputs
import proofs.«138623_j1709396983953_1_alg».proof.Proof.Gen.KernelIdeal.Value
import proofs.«138623_j1709396983953_1_alg».proof.Proof.Gen.ReferenceIdeal.Run
import proofs.«138623_j1709396983953_1_alg».proof.Proof.Gen.ReferenceIdeal.Read
import proofs.«138623_j1709396983953_1_alg».proof.Proof.PoolSpec
import proofs.«138623_j1709396983953_1_alg».proof.Proof.Blocks
import proofs.«138623_j1709396983953_1_alg».proof.Proof.RefRows
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, with the three results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- From memories that agree on the six arguments, the kernel's three result arrays and the reference's are the same
    row functions of the arguments: pooled features, and the two hidden-state initialisers. -/
theorem algebraic : Cert.algebraic_KernelIdeal_ReferenceIdeal := by
  intro m ρ m' ρ' _ hagree
  refine ⟨_, _, _, Cert.KernelIdeal.Blocks.run m ρ, ?_⟩
  refine (θ_run Cert.ReferenceIdeal.defs _ _).mono (fun _ h c => ?_) (Cert.ReferenceIdeal.Value.run (F := Ideal) m' ρ')
  obtain ⟨a0, a1, a2, a3, a4, a5⟩ := hagree c
  refine ⟨(h c).1.trans ?_, (h c).2.1.trans ?_, (h c).2.2.1.trans ?_, (h c).2.2.2⟩
  · rw [Cert.ReferenceIdeal.Read.val_main_v4_eq, Cert.ReferenceIdeal.Rows.pooled_eq, a0, a1]
  · rw [Cert.ReferenceIdeal.Read.val_main_v12_eq, Cert.ReferenceIdeal.Rows.hidden1_eq, a0, a1, a2, a3]
  · rw [Cert.ReferenceIdeal.Read.val_main_v17_eq, Cert.ReferenceIdeal.Rows.hidden2_eq, a0, a1, a4, a5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
